-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 27
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S8192x4096, .bf16⟩
  | .hbm, ⟨5, _⟩ => ⟨S1x4096, .f32⟩
  | .hbm, ⟨6, _⟩ => ⟨S4096x4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | .hbm, ⟨25, _⟩ => ⟨S8192x4096, .f32⟩
  | .hbm, ⟨26, _⟩ => ⟨S4x2048x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  bitsLt_bf16_f32 : FTy.bits .bf16 < FTy.bits .f32
  shapeCasts_S4096_S1x4096 : S4096.ShapeCasts S1x4096
  reducesTo_S4096x4096_S_d0_1 : S4096x4096.ReducesTo [0, 1] S_
  h_S_ : 0 < S_.numel
  bcast_S_S4096x4096 : S_.BroadcastsInDim S4096x4096 (![] : Fin 0 → Fin S4096x4096.rank)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S1x1x4096 : Shape := ⟨3, ![1, 1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4x2048x4096, .f32⟩
  | .hbm, ⟨22, _⟩ => ⟨S1x1x4096, .f32⟩
  | .hbm, ⟨23, _⟩ => ⟨S4x2048x4096, .f32⟩
  | .hbm, ⟨24, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.FoundPieces.lean ====
/-
  What one grid point of the blocked matrix product leaves behind, as values of the blocks it was given.

  The body keeps a running block `acc` of shape [2048, 1024] across the eight points of a K-sweep. With `x` the
  [2048, 512] block of the left operand and `w` the [1024, 512] block of the right operand at the point:
    * at the first point of a sweep the running block is reset to zero and then receives the point's product, so it
      ends as `step x w zero`;
    * at every later point it ends as `step x w acc`, `acc` being what the point before left;
    * at the last point the output block is, besides, the running block after that step plus the bias row.
  Here `step x w acc = acc + x · wᵀ` is the body's accumulate payload, `zero` its reset payload and the final sum its
  bias payload; this module only identifies what the run found in each buffer with those three terms, for any
  float instance.
-/
import proofs.«113518_j26027501814033_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Found

open Cert.KernelIdeal Cert.KernelIdeal.Gen

variable {F : FTy → Type} [FloatOps F]

/-- Every access of the body starts at the origin of its buffer. -/
theorem origin : (![0, 0] : Fin 2 → Nat) = fun _ => 0 := funext fun a => by fin_cases a <;> rfl

/-- First point of a sweep: the running block ends as the step from the zero block. -/
theorem acc_first (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond0_0 i) (hc1 : ¬cond0_1 i)
    (x0 : Vec F S2048x512 .bf16) (x1 : Vec F S1024x512 .bf16) (x2 : Vec F S1x1024 .f32) :
    sout0_A_0 c i arg3 harg3 arg4 harg4 arg5 harg5 arg6 harg6 arg7 harg7 hc0 hc1 x0 x1 x2 = k0_pay2 x0 x1 k0_pay1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S2048x1024) origin, View.readCov_unit_zero (S := S2048x1024) _ origin]
  simp only [View.readAt_eq_ld, harg3.read_unread, harg4.read_unread,
    View.ld_unit_zero (S := S2048x512) origin, View.ld_unit_zero (S := S1024x512) origin]

/-- A middle point of a sweep: the running block ends as the step from what the point before left. -/
theorem acc_middle (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : ¬cond0_1 i)
    (x0 : Vec F S2048x512 .bf16) (x1 : Vec F S1024x512 .bf16) (x2 : Vec F S1x1024 .f32) (xs0 : Vec F S2048x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero origin]
  simp only [View.readAt_eq_ld, harg3.read_unread, harg4.read_unread, harg7.read_unread,
    View.ld_unit_zero (S := S2048x512) origin, View.ld_unit_zero (S := S1024x512) origin,
    View.ld_unit_zero (S := S2048x1024) origin]

/-- Last point of a sweep: the running block takes the same step … -/
theorem acc_last (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x512 .bf16) (x1 : Vec F S1024x512 .bf16) (x2 : Vec F S1x1024 .f32) (xs0 : Vec F S2048x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero origin]
  simp only [View.readAt_eq_ld, harg3.read_unread, harg4.read_unread, harg7.read_unread,
    View.ld_unit_zero (S := S2048x512) origin, View.ld_unit_zero (S := S1024x512) origin,
    View.ld_unit_zero (S := S2048x1024) origin]

/-- … and the output block is that running block plus the bias row. -/
theorem out_last (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x512 .bf16) (x1 : Vec F S1024x512 .bf16) (x2 : Vec F S1x1024 .f32) (xs0 : Vec F S2048x1024 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero origin, View.readCov_unit_zero (S := S2048x1024) _ origin]
  simp only [View.readAt_eq_ld, harg3.read_unread, harg4.read_unread, harg5.read_unread, harg7.read_unread,
    View.ld_unit_zero (S := S2048x512) origin, View.ld_unit_zero (S := S1024x512) origin,
    View.ld_unit_zero (S := S2048x1024) origin, View.ld_unit_zero (S := S1x1024) origin]

end Cert.KernelIdeal.Found

end
-- ==== Proof.PayloadAt.lean ====
/-
  The body's three payloads read at one element, over the extended reals.

  At an element (p, q) of a [2048, 1024] block:
    * the reset payload is 0;
    * the accumulate payload of a left block `x` [2048, 512], a right block `w` [1024, 512] and a running block `acc`
      is `acc (p, q) + ∑ₖ x (p, k) · w (q, k)`, k over the 512 columns the two blocks share — the matrix unit
      contracts the second axis of both, and into a zero accumulator its result is just that sum;
    * the bias payload of a block `y` and a bias row `b` [1, 1024] is `y (p, q) + b (0, q)`.
  Changes of float format and casts of a shape to itself are the identity here.
-/
import proofs.«113518_j26027501814033_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen

/-- The reset payload is the zero block. -/
theorem reset_apply (j : S2048x1024.Idx) : k0_pay1 (F := Ideal) j = 0 := by
  unfold k0_pay1
  simp only [shapeCast_self]
  exact Ideal.ofBits_zero_f32

/-- The left operand of the block product at output element j and contraction index κ is read at row `j 0` … -/
theorem lhs_row (j : S2048x1024.Idx) (κ : dot_S2048x512_S1024x512_S2048x1024_1_1_0_0_n_n.contr.Idx) :
    (dot_S2048x512_S1024x512_S2048x1024_1_1_0_0_n_n.lhsIdx j κ 0).val = (j 0).val := by
  unfold DotDims.lhsIdx
  rw [dif_neg (show ¬(0 : Fin S2048x512.rank) ∈ dot_S2048x512_S1024x512_S2048x1024_1_1_0_0_n_n.lhsBatch by decide),
    dif_pos (show (0 : Fin S2048x512.rank) ∈ dot_S2048x512_S1024x512_S2048x1024_1_1_0_0_n_n.lhsNonContracting by decide)]
  rfl
/-- … and column κ; -/
theorem lhs_col (j : S2048x1024.Idx) (κ : dot_S2048x512_S1024x512_S2048x1024_1_1_0_0_n_n.contr.Idx) :
    (dot_S2048x512_S1024x512_S2048x1024_1_1_0_0_n_n.lhsIdx j κ 1).val = (κ ⟨0, by decide⟩).val :=
  dot_S2048x512_S1024x512_S2048x1024_1_1_0_0_n_n.lhsIdx_val_of_single rfl j κ
/-- the right operand at row `j 1` … -/
theorem rhs_row (j : S2048x1024.Idx) (κ : dot_S2048x512_S1024x512_S2048x1024_1_1_0_0_n_n.contr.Idx) :
    (dot_S2048x512_S1024x512_S2048x1024_1_1_0_0_n_n.rhsIdx j κ 0).val = (j 1).val := by
  unfold DotDims.rhsIdx
  rw [dif_neg (show ¬(0 : Fin S1024x512.rank) ∈ dot_S2048x512_S1024x512_S2048x1024_1_1_0_0_n_n.rhsBatch by decide),
    dif_pos (show (0 : Fin S1024x512.rank) ∈ dot_S2048x512_S1024x512_S2048x1024_1_1_0_0_n_n.rhsNonContracting by decide)]
  rfl
/-- … and column κ. -/
theorem rhs_col (j : S2048x1024.Idx) (κ : dot_S2048x512_S1024x512_S2048x1024_1_1_0_0_n_n.contr.Idx) :
    (dot_S2048x512_S1024x512_S2048x1024_1_1_0_0_n_n.rhsIdx j κ 1).val = (κ ⟨0, by decide⟩).val :=
  dot_S2048x512_S1024x512_S2048x1024_1_1_0_0_n_n.rhsIdx_val_of_single rfl j κ

/-- So with the contraction index named by its one coordinate k, the left factor is x (p, k) … -/
theorem lhs_at (p : Fin 2048) (q : Fin 1024) (k : Fin 512) :
    dot_S2048x512_S1024x512_S2048x1024_1_1_0_0_n_n.lhsIdx (ix2 p q) ((contrEquiv1 dot_S2048x512_S1024x512_S2048x1024_1_1_0_0_n_n 512 rfl rfl).symm k) = ix2 p k :=
  funext fun a => Fin.ext (by
    match a with
    | ⟨0, _⟩ => exact lhs_row _ _
    | ⟨1, _⟩ => exact (lhs_col _ _).trans (contrEquiv1_symm_val dot_S2048x512_S1024x512_S2048x1024_1_1_0_0_n_n 512 rfl rfl k))

/-- … and the right factor w (q, k). -/
theorem rhs_at (p : Fin 2048) (q : Fin 1024) (k : Fin 512) :
    dot_S2048x512_S1024x512_S2048x1024_1_1_0_0_n_n.rhsIdx (ix2 p q) ((contrEquiv1 dot_S2048x512_S1024x512_S2048x1024_1_1_0_0_n_n 512 rfl rfl).symm k) = ix2 q k :=
  funext fun a => Fin.ext (by
    match a with
    | ⟨0, _⟩ => exact rhs_row _ _
    | ⟨1, _⟩ => exact (rhs_col _ _).trans (contrEquiv1_symm_val dot_S2048x512_S1024x512_S2048x1024_1_1_0_0_n_n 512 rfl rfl k))

/-- The accumulate payload at (p, q): the running block there plus the 512-term dot product of row p of the left
    block with row q of the right block. -/
theorem step_apply (x : Vec Ideal S2048x512 .bf16) (w : Vec Ideal S1024x512 .bf16) (acc : Vec Ideal S2048x1024 .f32)
    (p : Fin 2048) (q : Fin 1024) :
    k0_pay2 (F := Ideal) x w acc (ix2 p q) = acc (ix2 p q) + ∑ k : Fin 512, x (ix2 p k) * w (ix2 q k) := by
  unfold k0_pay2
  simp only [shapeCast_self]
  rw [addf_apply]
  simp only [matmul]
  rw [Ideal.matmul_constant_zero_apply, ← Equiv.sum_comp (contrEquiv1 dot_S2048x512_S1024x512_S2048x1024_1_1_0_0_n_n 512 rfl rfl).symm]
  refine congrArg (acc (ix2 p q) + ·) (Finset.sum_congr rfl fun k _ => ?_)
  rw [lhs_at, rhs_at]

/-- The bias payload at (p, q): the block there plus the bias row at q. -/
theorem bias_apply (y : Vec Ideal S2048x1024 .f32) (b : Vec Ideal S1x1024 .f32) (p : Fin 2048) (q : Fin 1024) :
    k0_pay3 (F := Ideal) y b (ix2 p q) = y (ix2 p q) + b (ix2 (0 : Fin 1) q) := by
  unfold k0_pay3
  simp only [shapeCast_self]
  rw [addf_apply, broadcastTo_1b_ab_apply]

end Cert.KernelIdeal.Payload

end
-- ==== Proof.EntryArrays.lean ====
/-
  The three arrays the blocked product reads, as the host lines before it leave them, over the extended reals.

    * the left operand is the activation `x` [4, 2048, 4096] viewed as [8192, 4096] (row `b·2048 + s`), its change
      of float format the identity;
    * the right operand is the ternary weight: `clip (round (w / γ), -1, 1)` with `γ = max (mean |w|, 1e-8)` — the very
      term the reference computes before its contraction (its generated stage is cited, not re-derived), again under an
      identity change of format;
    * the bias row is `bias` [4096] viewed as [1, 4096].
-/
import proofs.«113518_j26027501814033_2_alg».proof.Proof.Gen.KernelIdeal.Frame
import proofs.«113518_j26027501814033_2_alg».proof.Proof.Gen.ReferenceIdeal.Read
import Idealize.ShloMosaic.Lib.ValueIdx
import Idealize.ShloMosaic.Lib.ValueLayout
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Entry

open Cert.KernelIdeal Cert.KernelIdeal.Gen

variable (m : (ℓ : Loc nD τ sig) → Buf (Elt Ideal) ℓ)

/-- The left operand as the region finds it: the activation reshaped to [8192, 4096]. -/
theorem left_entry (c : Dev nD) :
    @Eq (S8192x4096.Idx → EReal) (V m c main_v1)
      (truncf (F := Ideal) .bf16 (shapeCast S8192x4096 (m ((c : Thread nD τ).loc main_arg0)) shapeCasts_S4x2048x4096_S8192x4096) bitsLt_bf16_f32) := by
  dsimp only [V, V0]
  simp only [hostOps0, hostOps0_1, hostOps0_2, hostOps0_3, hostOps0_4, List.flatten_cons, List.flatten_nil, List.append_nil, List.cons_append, List.nil_append]
  after_results
  rfl

/-- The bias row as the region finds it: the bias reshaped to [1, 4096]. -/
theorem bias_entry (c : Dev nD) :
    @Eq (S1x4096.Idx → EReal) (V m c main_v2)
      (shapeCast S1x4096 (m ((c : Thread nD τ).loc main_arg2)) shapeCasts_S4096_S1x4096) := by
  dsimp only [V, V0]
  simp only [hostOps0, hostOps0_1, hostOps0_2, hostOps0_3, hostOps0_4, List.flatten_cons, List.flatten_nil, List.append_nil, List.cons_append, List.nil_append]
  after_results
  rfl

/-- The right operand as the region finds it: the reference's ternary weight of the same argument. -/
theorem right_entry (c : Dev nD) :
    @Eq (S4096x4096.Idx → EReal) (V m c main_v11)
      (truncf (F := Ideal) .bf16 (Cert.ReferenceIdeal.Read.val_main_v7 (F := Ideal) (m ((c : Thread nD τ).loc main_arg1))) bitsLt_bf16_f32) := by
  dsimp only [V, V0]
  simp only [hostOps0, hostOps0_1, hostOps0_2, hostOps0_3, hostOps0_4, List.flatten_cons, List.flatten_nil, List.append_nil, List.cons_append, List.nil_append]
  after_results
  rfl

end Cert.KernelIdeal.Entry

end
-- ==== Proof.BlockSum.lean ====
/-
  Two facts about finite sums in an additive commutative monoid, used to compare a contraction computed in
  consecutive blocks of columns with the same contraction computed at once.
-/
import Mathlib.Algebra.BigOperators.Fin
import Mathlib.Algebra.BigOperators.Intervals

namespace Cert.BlockSum

open Finset

variable {α : Type*} [AddCommMonoid α]

/-- Summing `n` consecutive blocks of `b` terms each is summing the first `n · b` terms. -/
theorem sum_blocks (φ : ℕ → α) (b : ℕ) : ∀ n : ℕ,
    ∑ s ∈ range n, ∑ j : Fin b, φ (s * b + j.val) = ∑ k ∈ range (n * b), φ k
  | 0 => by simp
  | n + 1 => by
    rw [Finset.sum_range_succ, sum_blocks φ b n, Nat.succ_mul, Finset.sum_range_add, Finset.sum_range (fun x => φ (n * b + x))]

/-- A family over `Fin N`, extended by zero to every natural, summed over the first `N` naturals is the family's sum. -/
theorem sum_range_extend {N : ℕ} (f : Fin N → α) :
    ∑ k ∈ range N, (if h : k < N then f ⟨k, h⟩ else 0) = ∑ k : Fin N, f k := by
  rw [Finset.sum_range]
  exact Finset.sum_congr rfl fun k _ => dif_pos k.isLt

end Cert.BlockSum
-- ==== Proof.Spec.lean ====
/-
  The function both programs compute, over the extended reals.

  With `A` the activation [4, 2048, 4096], `Q` the ternary weight [4096, 4096] and `B` the bias [4096]:
      linear A Q B (b, s, o) = (∑ₖ A (b, s, k) · Q (o, k)) + B o,       k over the 4096 input features.
  The blocked product works on the activation flattened to [8192, 4096] (row `r = b·2048 + s`) and names its operands'
  elements by natural-number coordinates; `actAt`, `wgtAt`, `biasAt` are those readings, zero outside the arrays, so
  that block offsets are plain arithmetic. `flat` is the flattened result with the contraction written as a sum over
  the first 4096 naturals — the form a sum of eight consecutive 512-column blocks regroups to — and reshaping `flat`
  to [4, 2048, 4096] gives `linear`.
-/
import Idealize.ShloMosaic.PureOps.Ideal
import Idealize.ShloMosaic.Lib.ValueIdx
import Idealize.ShloMosaic.Lib.Pipeline.Value
import proofs.«113518_j26027501814033_2_alg».proof.Proof.BlockSum

noncomputable section

open Idealize.ShloMosaic Idealize.ShloMosaic.ValueIdx

namespace Cert.BitLinear

abbrev Act : Shape := ⟨3, ![4, 2048, 4096]⟩
abbrev Wgt : Shape := ⟨2, ![4096, 4096]⟩
abbrev Bia : Shape := ⟨1, ![4096]⟩
abbrev Flat : Shape := ⟨2, ![8192, 4096]⟩

/-- The activation at flattened row `r` and feature `k`; zero outside the array. -/
def actAt (A : Act.Idx → EReal) (r k : ℕ) : EReal :=
  if h : r < 8192 ∧ k < 4096 then
    A (ix3 (⟨r / 2048, by omega⟩ : Fin 4) (⟨r % 2048, by omega⟩ : Fin 2048) (⟨k, h.2⟩ : Fin 4096))
  else 0

/-- The weight at output feature `o` and input feature `k`; zero outside the array. -/
def wgtAt (Q : Wgt.Idx → EReal) (o k : ℕ) : EReal :=
  if h : o < 4096 ∧ k < 4096 then Q (ix2 (⟨o, h.1⟩ : Fin 4096) (⟨k, h.2⟩ : Fin 4096)) else 0

/-- The bias at output feature `o`; zero outside the array. -/
def biasAt (B : Bia.Idx → EReal) (o : ℕ) : EReal :=
  if h : o < 4096 then B (ix1 (⟨o, h⟩ : Fin 4096)) else 0

/-- The flattened result: row `r` times the weight's row `o`, plus the bias at `o`. -/
def flat (A : Act.Idx → EReal) (Q : Wgt.Idx → EReal) (B : Bia.Idx → EReal) : Flat.Idx → EReal := fun i =>
  (∑ k ∈ Finset.range 4096, actAt A (i 0).val k * wgtAt Q (i 1).val k) + biasAt B (i 1).val

/-- The result: `x · Qᵀ + bias` on every (batch, position) row. -/
def linear (A : Act.Idx → EReal) (Q : Wgt.Idx → EReal) (B : Bia.Idx → EReal) : Act.Idx → EReal := fun i =>
  (∑ k : Fin 4096, A (ix3 (⟨(i 0).val, (i 0).isLt⟩ : Fin 4) (⟨(i 1).val, (i 1).isLt⟩ : Fin 2048) k)
      * Q (ix2 (⟨(i 2).val, (i 2).isLt⟩ : Fin 4096) k))
    + B (ix1 (⟨(i 2).val, (i 2).isLt⟩ : Fin 4096))

/-- The flattened result at row `r`, column `o`, with the contraction over the features themselves. -/
theorem flat_apply (A : Act.Idx → EReal) (Q : Wgt.Idx → EReal) (B : Bia.Idx → EReal) (r : Fin 8192) (o : Fin 4096) :
    flat A Q B (ix2 r o)
      = (∑ k : Fin 4096, A (ix3 (⟨r.val / 2048, by omega⟩ : Fin 4) (⟨r.val % 2048, by omega⟩ : Fin 2048) k) * Q (ix2 o k))
        + B (ix1 o) := by
  unfold flat
  show (∑ k ∈ Finset.range 4096, actAt A r.val k * wgtAt Q o.val k) + biasAt B o.val = _
  rw [← Cert.BlockSum.sum_range_extend (N := 4096)]
  congr 1
  · refine Finset.sum_congr rfl fun k hk => ?_
    have hk' : k < 4096 := Finset.mem_range.mp hk
    unfold actAt wgtAt
    rw [dif_pos hk', dif_pos ⟨r.isLt, hk'⟩, dif_pos ⟨o.isLt, hk'⟩]
  · unfold biasAt
    rw [dif_pos o.isLt]

/-- Reshaping the flattened result to [4, 2048, 4096] gives the result: row `b·2048 + s` is (b, s). -/
theorem reshape_flat (A : Act.Idx → EReal) (Q : Wgt.Idx → EReal) (B : Bia.Idx → EReal) (h : Flat.ShapeCasts Act) :
    shapeCast Act (flat A Q B) h = linear A Q B := by
  funext i
  obtain ⟨b, s, o, rfl⟩ : ∃ (b : Fin 4) (s : Fin 2048) (o : Fin 4096), i = ix3 b s o := ⟨i 0, i 1, i 2, eq_ix3 i⟩
  have hr : b.val * 2048 + s.val < 8192 := by omega
  refine (shapeCast_apply (flat A Q B) h (ix3 b s o) (ix2 (⟨b.val * 2048 + s.val, hr⟩ : Fin 8192) o) ?_).trans ?_
  · rw [Shape.rowMajor_val_two, Shape.rowMajor_val_three]
    rfl
  · rw [flat_apply]
    have e1 : (⟨(b.val * 2048 + s.val) / 2048, by omega⟩ : Fin 4) = b := Fin.ext (by show (b.val * 2048 + s.val) / 2048 = b.val; omega)
    have e2 : (⟨(b.val * 2048 + s.val) % 2048, by omega⟩ : Fin 2048) = s := Fin.ext (by show (b.val * 2048 + s.val) % 2048 = s.val; omega)
    simp only [e1, e2]
    rfl

end Cert.BitLinear

end
-- ==== Proof.Blocks.lean ====
/-
  The blocks a grid point is handed, as elements of the three operands.

  The grid has 4 × 4 × 8 = 128 points in row-major order: point `t` is row block `t / 32`, column block `t / 8 % 4` and
  K block `t % 8`. At point `t`
    * the left block [2048, 512] holds the activation's flattened rows `t/32 · 2048 + p` at features `t%8 · 512 + k`;
    * the right block [1024, 512] holds the ternary weight's rows `t/8%4 · 1024 + q` at the same features;
    * the bias block [1, 1024] holds the bias at `t/8%4 · 1024 + q`;
    * the output block [2048, 1024] is rows `t/32 · 2048 + p`, columns `t/8%4 · 1024 + q` of the result.
  A block's element (y₀, y₁) sits in its array at (block index × block size + y) on each axis.
-/
import proofs.«113518_j26027501814033_2_alg».proof.Proof.EntryArrays
import proofs.«113518_j26027501814033_2_alg».proof.Proof.Spec

noncomputable section

open Idealize.ShloMosaic Idealize.ShloMosaic.TcCoe Idealize.SL.Sem Idealize.ShloMosaic.ValueIdx

namespace Cert.KernelIdeal.Blocks

open Cert.KernelIdeal Cert.KernelIdeal.Gen Cert.BitLinear

variable (m : (ℓ : Loc nD τ sig) → Buf (Elt Ideal) ℓ)

/-- The ternary weight of the weight argument (the reference's own stage for it). -/
abbrev tern (c : Dev nD) : Wgt.Idx → EReal :=
  Cert.ReferenceIdeal.Read.val_main_v7 (F := Ideal) (m ((c : Thread nD τ).loc main_arg1))

/-- The four windows' block indices at every grid point, decided over the grid. -/
theorem block_index : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- The left operand at (r, k) is the activation at flattened row r, feature k. -/
theorem left_at (c : Dev nD) (r : Fin 8192) (k : Fin 4096) :
    (V m c main_v1 : S8192x4096.Idx → EReal) (ix2 r k) = actAt (m ((c : Thread nD τ).loc main_arg0)) r.val k.val := by
  refine (congrFun (Entry.left_entry m c) (ix2 r k)).trans ?_
  show shapeCast S8192x4096 (m ((c : Thread nD τ).loc main_arg0)) shapeCasts_S4x2048x4096_S8192x4096 (ix2 r k) = _
  refine (shapeCast_apply (m ((c : Thread nD τ).loc main_arg0)) shapeCasts_S4x2048x4096_S8192x4096 (ix2 r k)
    (ix3 (⟨r.val / 2048, by omega⟩ : Fin 4) (⟨r.val % 2048, by omega⟩ : Fin 2048) k) ?_).trans ?_
  · show (S4x2048x4096.rowMajor (ix3 (⟨r.val / 2048, by omega⟩ : Fin 4) (⟨r.val % 2048, by omega⟩ : Fin 2048) k)).val
      = (S8192x4096.rowMajor (ix2 r k)).val
    rw [Shape.rowMajor_val_three, Shape.rowMajor_val_two]
    show (r.val / 2048 * 2048 + r.val % 2048) * 4096 + k.val = r.val * 4096 + k.val
    omega
  · unfold actAt
    rw [dif_pos ⟨r.isLt, k.isLt⟩]

/-- The right operand at (o, k) is the ternary weight there. -/
theorem right_at (c : Dev nD) (o : Fin 4096) (k : Fin 4096) :
    (V m c main_v11 : S4096x4096.Idx → EReal) (ix2 o k) = wgtAt (tern m c) o.val k.val := by
  refine (congrFun (Entry.right_entry m c) (ix2 o k)).trans ?_
  unfold wgtAt
  rw [dif_pos ⟨o.isLt, k.isLt⟩]
  rfl

/-- The bias row at (0, o) is the bias at o. -/
theorem bias_at (c : Dev nD) (o : Fin 4096) :
    (V m c main_v2 : S1x4096.Idx → EReal) (ix2 (0 : Fin 1) o) = biasAt (m ((c : Thread nD τ).loc main_arg2)) o.val := by
  refine (congrFun (Entry.bias_entry m c) (ix2 (0 : Fin 1) o)).trans ?_
  refine (shapeCast_a_1a_apply (m ((c : Thread nD τ).loc main_arg2)) shapeCasts_S4096_S1x4096 (0 : Fin 1) o).trans ?_
  unfold biasAt
  rw [dif_pos o.isLt]

/-- The left block at point t. -/
theorem left_block (c : Dev nD) (t : Fin cfg0.N) (p : Fin 2048) (k : Fin 512) :
    (iblk m c 0 t : S2048x512.Idx → EReal) (ix2 p k)
      = actAt (m ((c : Thread nD τ).loc main_arg0)) (t.val / 32 * 2048 + p.val) (t.val % 8 * 512 + k.val) := by
  have hN : t.val < 128 := lt_of_lt_of_eq t.isLt (show cfg0.N = 128 from N_0)
  obtain ⟨e0, e1, -⟩ := block_index t
  unfold iblk
  rw [View.read_apply]
  show (V m c main_v1 : S8192x4096.Idx → EReal) (((cfg0.win 0).blk t).view.emb (ix2 p k)) = _
  have he : (((cfg0.win 0).blk t).view.emb (ix2 p k) : S8192x4096.Idx)
      = ix2 (⟨t.val / 32 * 2048 + p.val, by omega⟩ : Fin 8192) (⟨t.val % 8 * 512 + k.val, by omega⟩ : Fin 4096) :=
    funext fun a => Fin.ext (by
      match a with
      | ⟨0, _⟩ => show win0_0.index t (0 : Fin 2) * 2048 + 1 * p.val = t.val / 32 * 2048 + p.val; rw [e0]; omega
      | ⟨1, _⟩ => show win0_0.index t (1 : Fin 2) * 512 + 1 * k.val = t.val % 8 * 512 + k.val; rw [e1]; omega)
  rw [he]
  exact left_at m c _ _

/-- The right block at point t. -/
theorem right_block (c : Dev nD) (t : Fin cfg0.N) (q : Fin 1024) (k : Fin 512) :
    (iblk m c 1 t : S1024x512.Idx → EReal) (ix2 q k)
      = wgtAt (tern m c) (t.val / 8 % 4 * 1024 + q.val) (t.val % 8 * 512 + k.val) := by
  have hN : t.val < 128 := lt_of_lt_of_eq t.isLt (show cfg0.N = 128 from N_0)
  obtain ⟨-, -, e0, e1, -⟩ := block_index t
  unfold iblk
  rw [View.read_apply]
  show (V m c main_v11 : S4096x4096.Idx → EReal) (((cfg0.win 1).blk t).view.emb (ix2 q k)) = _
  have he : (((cfg0.win 1).blk t).view.emb (ix2 q k) : S4096x4096.Idx)
      = ix2 (⟨t.val / 8 % 4 * 1024 + q.val, by omega⟩ : Fin 4096) (⟨t.val % 8 * 512 + k.val, by omega⟩ : Fin 4096) :=
    funext fun a => Fin.ext (by
      match a with
      | ⟨0, _⟩ => show win0_1.index t (0 : Fin 2) * 1024 + 1 * q.val = t.val / 8 % 4 * 1024 + q.val; rw [e0]; omega
      | ⟨1, _⟩ => show win0_1.index t (1 : Fin 2) * 512 + 1 * k.val = t.val % 8 * 512 + k.val; rw [e1]; omega)
  rw [he]
  exact right_at m c _ _

/-- The bias block at point t. -/
theorem bias_block (c : Dev nD) (t : Fin cfg0.N) (q : Fin 1024) :
    (iblk m c 2 t : S1x1024.Idx → EReal) (ix2 (0 : Fin 1) q)
      = biasAt (m ((c : Thread nD τ).loc main_arg2)) (t.val / 8 % 4 * 1024 + q.val) := by
  have hN : t.val < 128 := lt_of_lt_of_eq t.isLt (show cfg0.N = 128 from N_0)
  obtain ⟨-, -, -, -, e0, e1, -⟩ := block_index t
  unfold iblk
  rw [View.read_apply]
  show (V m c main_v2 : S1x4096.Idx → EReal) (((cfg0.win 2).blk t).view.emb (ix2 (0 : Fin 1) q)) = _
  have he : (((cfg0.win 2).blk t).view.emb (ix2 (0 : Fin 1) q) : S1x4096.Idx)
      = ix2 (0 : Fin 1) (⟨t.val / 8 % 4 * 1024 + q.val, by omega⟩ : Fin 4096) :=
    funext fun a => Fin.ext (by
      match a with
      | ⟨0, _⟩ => show win0_2.index t (0 : Fin 2) * 1 + 1 * 0 = 0; rw [e0]
      | ⟨1, _⟩ => show win0_2.index t (1 : Fin 2) * 1024 + 1 * q.val = t.val / 8 % 4 * 1024 + q.val; rw [e1]; omega)
  rw [he]
  exact bias_at m c _

end Cert.KernelIdeal.Blocks

end
-- ==== Proof.Fold.lean ====
/-
  The running block over a K-sweep, and the output block its last point writes.

  The eight points `8u, 8u + 1, …, 8u + 7` of a sweep share a row block and a column block and walk the eight K blocks
  in order. The running block is reset at `8u` and each point adds its own product of a [2048, 512] left block with a
  [1024, 512] right block, so after the last point its element (p, q) is the sum of eight 512-term dot products — by
  regrouping, the one 4096-term dot product of the activation's row with the weight's row. Only commutativity and
  associativity of addition on the extended reals are used. The output block written at the last point adds the bias.
-/
import proofs.«113518_j26027501814033_2_alg».proof.Proof.FoundPieces
import proofs.«113518_j26027501814033_2_alg».proof.Proof.PayloadAt
import proofs.«113518_j26027501814033_2_alg».proof.Proof.Blocks

noncomputable section

open Idealize.ShloMosaic Idealize.ShloMosaic.TcCoe Idealize.SL.Sem Idealize.ShloMosaic.ValueIdx

namespace Cert.KernelIdeal.Fold

open Cert.KernelIdeal Cert.KernelIdeal.Gen Cert.BitLinear

variable (m : (ℓ : Loc nD τ sig) → Buf (Elt Ideal) ℓ)

/-- What the running block holds after point `n`. -/
def running (c : Dev nD) (n : ℕ) (h : n < cfg0.N) : S2048x1024.Idx → EReal := (outsAt0 m c n h).2

/-- One point's step: the running block `acc` plus the product of the point's two blocks. -/
def stepAt (c : Dev nD) (n : ℕ) (h : n < cfg0.N) (acc : S2048x1024.Idx → EReal) : S2048x1024.Idx → EReal :=
  k0_pay2 (F := Ideal) (iblk m c 0 ⟨n, h⟩) (iblk m c 1 ⟨n, h⟩) acc

/-- The first point of a sweep steps from the zero block. -/
def fromZero (c : Dev nD) (n : ℕ) (h : n < cfg0.N) : S2048x1024.Idx → EReal :=
  stepAt m c n h (k0_pay1 (F := Ideal))

/-- At the first point of a sweep the running block is the step from zero: as blocks … -/
theorem first_eq (c : Dev nD) (t : Fin cfg0.N) (h0 : t.val % 8 = 0) :
    (outsAt0 m c t.val t.isLt).2 = k0_pay2 (F := Ideal) (iblk m c 0 t) (iblk m c 1 t) (k0_pay1 (F := Ideal)) := by
  have h1 : ¬t.val % 8 = 7 := by omega
  rw [outsAt0_A m c t h0 h1]
  dsimp only
  exact Found.acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- … and at every other point it is the step from what the point before left. -/
theorem later_eq (c : Dev nD) (t : Fin cfg0.N) (h0 : ¬t.val % 8 = 0) :
    (outsAt0 m c t.val t.isLt).2 = k0_pay2 (F := Ideal) (iblk m c 0 t) (iblk m c 1 t) (outsAt0 m c (t.val - 1) (Nat.lt_of_le_of_lt (Nat.sub_le _ _) t.isLt)).2 := by
  by_cases h7 : t.val % 8 = 7
  · rw [outsAt0_C m c t h0 h7]
    dsimp only
    exact Found.acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2
  · rw [outsAt0_B m c t h0 h7]
    dsimp only
    exact Found.acc_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h7 ((hcond0_1 t).mp h)) (iblk m c 0 t) (iblk m c 1 t) (iblk m c 2 t) (outsAt0 m c (t.val - 1) (Nat.lt_of_le_of_lt (Nat.sub_le _ _) t.isLt)).2

/-- The same two facts over the point's number. -/
theorem reset_eq (c : Dev nD) (n : ℕ) (h : n < cfg0.N) (h0 : n % 8 = 0) : running m c n h = fromZero m c n h :=
  first_eq m c ⟨n, h⟩ h0

theorem step_eq (c : Dev nD) (n : ℕ) (h : n + 1 < cfg0.N) (hne : ¬(n + 1) % 8 = 0) :
    running m c (n + 1) h = stepAt m c (n + 1) h (running m c n (Nat.lt_of_succ_lt h)) :=
  later_eq m c ⟨n + 1, h⟩ hne

/-- So at any point the running block is the fold over its sweep so far. -/
theorem running_fold (c : Dev nD) (t : ℕ) (ht : t < cfg0.N) (h' : 8 * (t / 8) + t % 8 < cfg0.N) :
    running m c t ht = Pipeline.accAt (fromZero m c) (stepAt m c) (8 * (t / 8)) (t % 8) h' :=
  Pipeline.eq_accAt_of_mod (running m c) 8 (fromZero m c) (stepAt m c) (reset_eq m c) (step_eq m c) (by norm_num) t ht h'

/-- Point `n`'s addend at an element of the block: the 512-term dot product over the point's K block. -/
def addend (c : Dev nD) (n : ℕ) (i : S2048x1024.Idx) : EReal :=
  ∑ k : Fin 512, actAt (m ((c : Thread nD τ).loc main_arg0)) (n / 32 * 2048 + (i 0).val) (n % 8 * 512 + k.val)
    * wgtAt (Blocks.tern m c) (n / 8 % 4 * 1024 + (i 1).val) (n % 8 * 512 + k.val)

/-- A step adds the point's addend. -/
theorem step_add (c : Dev nD) (n : ℕ) (h : n < cfg0.N) (acc : S2048x1024.Idx → EReal) (i : S2048x1024.Idx) :
    stepAt m c n h acc i = acc i + addend m c n i := by
  obtain ⟨p, q, rfl⟩ : ∃ (p : Fin 2048) (q : Fin 1024), i = ix2 p q := ⟨i 0, i 1, eq_ix2 i⟩
  unfold stepAt
  refine (Payload.step_apply (iblk m c 0 ⟨n, h⟩) (iblk m c 1 ⟨n, h⟩) acc p q).trans ?_
  refine congrArg (acc (ix2 p q) + ·) (Finset.sum_congr rfl fun k _ => ?_)
  exact congrArg₂ (· * ·) (Blocks.left_block m c ⟨n, h⟩ p k) (Blocks.right_block m c ⟨n, h⟩ q k)

/-- After the last point of a sweep the running block is the whole contraction: element (p, q) of the block at
    point `t` is the dot product of activation row `t/32·2048 + p` with weight row `t/8%4·1024 + q`. -/
theorem running_last (c : Dev nD) (t : ℕ) (ht : t < cfg0.N) (h7 : t % 8 = 7) (i : S2048x1024.Idx) :
    running m c t ht i
      = ∑ k ∈ Finset.range 4096, actAt (m ((c : Thread nD τ).loc main_arg0)) (t / 32 * 2048 + (i 0).val) k
          * wgtAt (Blocks.tern m c) (t / 8 % 4 * 1024 + (i 1).val) k := by
  have h' : 8 * (t / 8) + t % 8 < cfg0.N := by rw [Nat.div_add_mod]; exact ht
  refine (congrFun (running_fold m c t ht h') i).trans ?_
  refine (Pipeline.accAt_add_apply (fromZero m c) (stepAt m c) (fun _ => 0) (addend m c) (8 * (t / 8)) 7
    (fun h j => (step_add m c _ h _ j).trans (congrArg (· + addend m c _ j) (Payload.reset_apply j)))
    (fun n h acc j _ _ => step_add m c n h acc j) (t % 8) (by omega) h' i).trans ?_
  have e8 : t % 8 + 1 = 8 := by omega
  rw [zero_add, e8, ← Cert.BlockSum.sum_blocks (fun k => actAt (m ((c : Thread nD τ).loc main_arg0)) (t / 32 * 2048 + (i 0).val) k
    * wgtAt (Blocks.tern m c) (t / 8 % 4 * 1024 + (i 1).val) k) 512 8]
  refine Finset.sum_congr rfl fun s hs => ?_
  have hs' : s < 8 := Finset.mem_range.mp hs
  have a1 : (8 * (t / 8) + s) / 32 = t / 32 := by omega
  have a2 : (8 * (t / 8) + s) / 8 % 4 = t / 8 % 4 := by omega
  have a3 : (8 * (t / 8) + s) % 8 = s := by omega
  unfold addend
  rw [a1, a2, a3]

/-- The output block the last point of a sweep writes is its running block plus the bias row. -/
theorem out_eq (c : Dev nD) (t : Fin cfg0.N) (h7 : t.val % 8 = 7) :
    (outsAt0 m c t.val t.isLt).1 = k0_pay3 (F := Ideal) (running m c t.val t.isLt) (iblk m c 2 t) := by
  have h0 : ¬t.val % 8 = 0 := by omega
  unfold running
  rw [outsAt0_C m c t h0 h7]
  dsimp only
  refine (Found.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2).trans ?_
  refine congrArg (fun y => k0_pay3 (F := Ideal) y (iblk m c 2 t)) ?_
  exact (Found.acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2).symm

/-- So that block, element by element, is the flattened result at the block's place in the array. -/
theorem out_at (c : Dev nD) (t : Fin cfg0.N) (h7 : t.val % 8 = 7) (p : Fin 2048) (q : Fin 1024)
    (hr : t.val / 32 * 2048 + p.val < 8192) (ho : t.val / 8 % 4 * 1024 + q.val < 4096) :
    (outsAt0 m c t.val t.isLt).1 (ix2 p q)
      = flat (m ((c : Thread nD τ).loc main_arg0)) (Blocks.tern m c) (m ((c : Thread nD τ).loc main_arg2))
          (ix2 (⟨t.val / 32 * 2048 + p.val, hr⟩ : Fin 8192) (⟨t.val / 8 % 4 * 1024 + q.val, ho⟩ : Fin 4096)) := by
  refine (congrFun (out_eq m c t h7) (ix2 p q)).trans ?_
  refine (Payload.bias_apply (running m c t.val t.isLt) (iblk m c 2 t) p q).trans ?_
  rw [running_last m c t.val t.isLt h7 (ix2 p q), Blocks.bias_block m c t q]
  rfl

end Cert.KernelIdeal.Fold

end
-- ==== Proof.Final.lean ====
/-
  From blocks to the array, and from the array to the program's result.

  The output's 16 blocks of [2048, 1024] tile the [8192, 4096] array; block (u, v) is written back once, at the last
  point of its sweep, and holds the flattened result on rows `u·2048 …`, columns `v·1024 …`. So the array ends as
  the flattened result everywhere, and the one host line after the product — the reshape to [4, 2048, 4096] — turns
  it into `x · Qᵀ + bias`.
-/
import proofs.«113518_j26027501814033_2_alg».proof.Proof.Fold
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.BitLinear

variable (m : (ℓ : Loc nD τ sig) → Buf (Elt Ideal) ℓ) (ρ : Dev nD → PrngReg)

/-- What a writing point writes back is its block of the flattened result. -/
theorem flushed_eq (c : Dev nD) (t : Fin cfg0.N) (hf : (cfg0.win 3).flush t = true) :
    (dats m 0 c).flushed 3 t = ((cfg0.win 3).blk t).view.read (Elt Ideal) (flat (m ((c : Thread nD τ).loc main_arg0)) (Blocks.tern m c) (m ((c : Thread nD τ).loc main_arg2))) := by
  have h7 : t.val % 8 = 7 := (flush0_3 t).mp hf
  have hN : t.val < 128 := lt_of_lt_of_eq t.isLt (show cfg0.N = 128 from N_0)
  obtain ⟨-, -, -, -, -, -, e0, e1⟩ := Blocks.block_index t
  show (cfg0.win 3).cut (grid0.coords t) ((dats m 0 c).after 3 t) = _
  rw [after0_3]
  funext j
  obtain ⟨p, q, rfl⟩ : ∃ (p : Fin 2048) (q : Fin 1024), j = ix2 p q := ⟨j 0, j 1, eq_ix2 j⟩
  have hr : t.val / 32 * 2048 + p.val < 8192 := by omega
  have ho : t.val / 8 % 4 * 1024 + q.val < 4096 := by omega
  show (outsAt0 m c t.val t.isLt).1 (ix2 p q) = (flat (m ((c : Thread nD τ).loc main_arg0)) (Blocks.tern m c) (m ((c : Thread nD τ).loc main_arg2))) (((cfg0.win 3).blk t).view.emb (ix2 p q))
  have he : (((cfg0.win 3).blk t).view.emb (ix2 p q) : S8192x4096.Idx)
      = ix2 (⟨t.val / 32 * 2048 + p.val, hr⟩ : Fin 8192) (⟨t.val / 8 % 4 * 1024 + q.val, ho⟩ : Fin 4096) :=
    funext fun a => Fin.ext (by
      match a with
      | ⟨0, _⟩ => show win0_3.index t (0 : Fin 2) * 2048 + 1 * p.val = t.val / 32 * 2048 + p.val; rw [e0]; omega
      | ⟨1, _⟩ => show win0_3.index t (1 : Fin 2) * 1024 + 1 * q.val = t.val / 8 % 4 * 1024 + q.val; rw [e1]; omega)
  rw [he]
  exact Fold.out_at m c t h7 p q hr ho

/-- An element of the array lies in point `t`'s block iff each coordinate lies in the block's range. -/
theorem mem_block (t : Fin cfg0.N) (i : S8192x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v12).slice (win0_3.rect t)).set ↔ _
  rw [View.set_slice_whole, Rect.mem_set_unit]
  exact Iff.rfl

/-- Every element of the array is in the block of a writing point: the last point of the sweep of its row and
    column block. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hlt : (i 0).val / 2048 * 32 + (i 1).val / 1024 * 8 + 7 < 128 := by omega
  refine ⟨⟨(i 0).val / 2048 * 32 + (i 1).val / 1024 * 8 + 7, lt_of_lt_of_eq hlt N_0.symm⟩, ?_, ?_⟩
  · refine (flush0_3 _).mpr ?_
    show ((i 0).val / 2048 * 32 + (i 1).val / 1024 * 8 + 7) % 8 = 7
    omega
  · rw [mem_block]
    obtain ⟨-, -, -, -, -, -, e0, e1⟩ := Blocks.block_index ⟨(i 0).val / 2048 * 32 + (i 1).val / 1024 * 8 + 7, lt_of_lt_of_eq hlt N_0.symm⟩
    have e0' : win0_3.index ⟨(i 0).val / 2048 * 32 + (i 1).val / 1024 * 8 + 7, lt_of_lt_of_eq hlt N_0.symm⟩ (0 : Fin 2)
        = ((i 0).val / 2048 * 32 + (i 1).val / 1024 * 8 + 7) / 32 := e0
    have e1' : win0_3.index ⟨(i 0).val / 2048 * 32 + (i 1).val / 1024 * 8 + 7, lt_of_lt_of_eq hlt N_0.symm⟩ (1 : Fin 2)
        = ((i 0).val / 2048 * 32 + (i 1).val / 1024 * 8 + 7) / 8 % 4 := e1
    intro a
    match a with
    | ⟨0, _⟩ =>
      show win0_3.index _ (0 : Fin 2) * 2048 ≤ (i 0).val ∧ (i 0).val < win0_3.index _ (0 : Fin 2) * 2048 + 2048
      rw [e0']; omega
    | ⟨1, _⟩ =>
      show win0_3.index _ (1 : Fin 2) * 1024 ≤ (i 1).val ∧ (i 1).val < win0_3.index _ (1 : Fin 2) * 1024 + 1024
      rw [e1']; omega

/-- The product's result array after the run is the flattened result. -/
theorem final_flat (c : Dev nD) : (dats m 0 c).arrAt 3 cfg0.N = (flat (m ((c : Thread nD τ).loc main_arg0)) (Blocks.tern m c) (m ((c : Thread nD τ).loc main_arg2))) :=
  (dats m 0 c).arrAt_eq_of_cover 3 (flat (m ((c : Thread nD τ).loc main_arg0)) (Blocks.tern m c) (m ((c : Thread nD τ).loc main_arg2))) (fun t hf => flushed_eq m c t hf) covered

/-- The program's result: the reshape of that array to [4, 2048, 4096]. -/
theorem tail_eq (c : Dev nD) :
    Pipeline.afterTail₀ cfgs (dats m) 0 (V0 m) [hostOps1] c main_v13 = linear (m ((c : Thread nD τ).loc main_arg0)) (Blocks.tern m c) (m ((c : Thread nD τ).loc main_arg2)) := by
  have hw : (Pipeline.withArrays (cfgs 0).spec c (V0 m c) (fun w => (dats m 0 c).arrAt w (cfgs 0).N)
      (Proc.devRef .tc main_v12) : Flat.Idx → EReal) = (flat (m ((c : Thread nD τ).loc main_arg0)) (Blocks.tern m c) (m ((c : Thread nD τ).loc main_arg2))) :=
    (Pipeline.withArrays_arr spec0 launch0.win.arr_inj c (V0 m c) (fun w => (dats m 0 c).arrAt w cfg0.N) 3).trans
      (final_flat m c)
  unfold Pipeline.afterTail₀
  show StableHlo.after hostOps1 _ (Proc.devRef .tc main_v13) = _
  after_results
  refine Eq.trans ?_ (reshape_flat (m ((c : Thread nD τ).loc main_arg0)) (Blocks.tern m c) (m ((c : Thread nD τ).loc main_arg2)) shapeCasts_S8192x4096_S4x2048x4096)
  rw [← hw]
  rfl

/-- The run, read: every weakly fair execution ends with the program's result at `x · Qᵀ + bias` and the three
    arguments as they were. -/
theorem run : θ_run defs (onTc (τ := τ) (main (F := Ideal))) ⟨m, fun _ => 0, ρ⟩ fun r => ∀ c : Dev nD,
      r.2.mem ((c : Thread nD τ).loc main_v13) = linear (m ((c : Thread nD τ).loc main_arg0)) (Blocks.tern m c) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨((h c).2 main_v13 (Pipeline.mem_restRefs_of main_v13 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.Final

end
-- ==== Proof.RefLinear.lean ====
/-
  The reference's result is the same function: its `dot_general` contracts the activation's last axis with the
  ternary weight's last axis, element (b, s, o) being `∑ₖ x (b, s, k) · Q (o, k)`, and its two broadcasts put the bias
  at `o` on every row.
-/
import proofs.«113518_j26027501814033_2_alg».proof.Proof.Gen.ReferenceIdeal.Read
import proofs.«113518_j26027501814033_2_alg».proof.Proof.Spec

noncomputable section

open Idealize.ShloMosaic Idealize.ShloMosaic.ValueIdx

namespace Cert.ReferenceIdeal.RefValue

open Cert.ReferenceIdeal Cert.ReferenceIdeal.Read Cert.BitLinear

/-- The contraction's left operand index at output (b, s, o) and feature k is (b, s, k) … -/
theorem lidx_eq (i : S4x2048x4096.Idx) (k : Fin 4096) :
    lidx_main_v8 i k = ix3 (⟨(i 0).val, (i 0).isLt⟩ : Fin 4) (⟨(i 1).val, (i 1).isLt⟩ : Fin 2048) k :=
  funext fun a => by match a with | ⟨0, _⟩ => rfl | ⟨1, _⟩ => rfl | ⟨2, _⟩ => rfl

/-- … its right operand index is (o, k) … -/
theorem ridx_eq (i : S4x2048x4096.Idx) (k : Fin 4096) :
    ridx_main_v8 i k = ix2 (⟨(i 2).val, (i 2).isLt⟩ : Fin 4096) k :=
  funext fun a => by match a with | ⟨0, _⟩ => rfl | ⟨1, _⟩ => rfl

/-- … and the broadcast bias is read at o. -/
theorem bidx_eq (i : S4x2048x4096.Idx) :
    idx_main_v9 (idx_main_v10 i) = ix1 (⟨(i 2).val, (i 2).isLt⟩ : Fin 4096) :=
  funext fun a => by match a with | ⟨0, _⟩ => rfl

/-- The reference's result stage is `x · Qᵀ + bias` over its own ternary weight. -/
theorem reference_linear (x0 : (⟨S4x2048x4096, .f32⟩ : BufTy).Contents (Elt Ideal))
    (x1 : (⟨S4096x4096, .f32⟩ : BufTy).Contents (Elt Ideal)) (x2 : (⟨S4096, .f32⟩ : BufTy).Contents (Elt Ideal)) :
    val_main_v11 (F := Ideal) x0 x1 x2 = linear x0 (val_main_v7 (F := Ideal) x1) x2 := by
  funext i
  rw [val_main_v11_apply, val_main_v8_apply, val_main_v10_apply, val_main_v9_apply]
  simp only [lidx_eq, ridx_eq, bidx_eq]
  rfl

end Cert.ReferenceIdeal.RefValue

end
-- ==== Proof.lean ====
/-
  A ternary-weight linear layer: `x · Qᵀ + bias` with `Q = clip (round (w / γ), -1, 1)`, `γ = max (mean |w|, 1e-8)`,
  over x [4, 2048, 4096], w [4096, 4096], bias [4096].

  The kernel quantizes the weight on the host exactly as the reference does, flattens the activation to
  [8192, 4096], and computes the product in 4 × 4 output blocks of [2048, 1024], each accumulated over eight
  512-column slices of the contraction and finished by adding the bias; the result is reshaped back. The reference
  contracts all 4096 columns at once and adds the broadcast bias. Over the extended reals a change of float format
  is the identity, so the two differ only in how the 4096-term sum is grouped: eight partial sums added in order,
  starting from zero, against one sum. Addition on the extended reals is commutative and associative, which is all
  the comparison needs; no input has to be finite for it.

  The modules: `BlockSum` (regrouping a sum into consecutive blocks), `Spec` (the function, flattened and not),
  `FoundPieces` and `PayloadAt` (what one grid point leaves, and its arithmetic at an element), `EntryArrays` and
  `Blocks` (the operands and the blocks cut from them), `Fold` (a K-sweep's running block), `Final` (blocks to the
  array, and the reshape), `RefLinear` (the reference is the same function).
-/
import proofs.«113518_j26027501814033_2_alg».proof.Defs
import proofs.«113518_j26027501814033_2_alg».proof.Proof.Gen.Kernel
import proofs.«113518_j26027501814033_2_alg».proof.Proof.Gen.Kernel.Frame
import proofs.«113518_j26027501814033_2_alg».proof.Proof.Gen.KernelIdeal
import proofs.«113518_j26027501814033_2_alg».proof.Proof.Gen.KernelIdeal.Frame
import proofs.«113518_j26027501814033_2_alg».proof.Proof.Gen.ReferenceIdeal
import proofs.«113518_j26027501814033_2_alg».proof.Proof.Gen.ReferenceIdeal.Run
import proofs.«113518_j26027501814033_2_alg».proof.Proof.Gen.ReferenceIdeal.Read
import proofs.«113518_j26027501814033_2_alg».proof.Proof.Gen.Pre_finite_inputs
import proofs.«113518_j26027501814033_2_alg».proof.Proof.Final
import proofs.«113518_j26027501814033_2_alg».proof.Proof.RefLinear
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: it runs, and its arguments are never written. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at `x · Qᵀ + bias` of arguments that agree. -/
theorem algebraic : Cert.algebraic_KernelIdeal_ReferenceIdeal := by
  intro m ρ m' ρ' _ hagree
  refine ⟨fun c => Cert.BitLinear.linear (m ((c.tc : Thread Cert.KernelIdeal.nD Cert.KernelIdeal.τ).loc Cert.KernelIdeal.main_arg0))
      (Cert.KernelIdeal.Blocks.tern m c) (m ((c.tc : Thread Cert.KernelIdeal.nD Cert.KernelIdeal.τ).loc Cert.KernelIdeal.main_arg2)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v11_eq _ _ _).trans (Cert.ReferenceIdeal.RefValue.reference_linear _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
